-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  rotates_S512x4096_d1 : S512x4096.Rotates 1 none
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S4095x4096 : Shape := ⟨2, ![4095, 4096]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x4096, .i32⟩
  | .hbm, ⟨3, _⟩ => ⟨S_, .i32⟩
  | .hbm, ⟨4, _⟩ => ⟨S4096x4096, .i32⟩
  | .hbm, ⟨5, _⟩ => ⟨S4096x4096, .i32⟩
  | .hbm, ⟨6, _⟩ => ⟨S4096x4096, .i1⟩
  | .hbm, ⟨7, _⟩ => ⟨S4096x4096, .f32⟩
  | .hbm, ⟨8, _⟩ => ⟨S4095x4096, .f32⟩
  | .hbm, ⟨9, _⟩ => ⟨S1x4096, .f32⟩
  | .hbm, ⟨10, _⟩ => ⟨S4096x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S4096x4096_S4095x4096_1_0 : S4096x4096.Slices ![1, 0] S4095x4096
  slices_S4096x4096_S1x4096_0_0 : S4096x4096.Slices ![0, 0] S1x4096
  concatenates_S4095x4096_S1x4096_S4096x4096_d0 : Shape.Concatenates [S4095x4096, S1x4096] S4096x4096 0
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibOneHot.lean ====
/-
  One-hot factors on the extended reals. A one-bit comparison word converted to a float is 1 or 0; two numbers below 2³²
  written as 32-bit words are equal words exactly when they are equal numbers, so an "equal" comparison of two such words,
  converted to a float, is 1 when the numbers agree and 0 otherwise (an identity matrix or a one-hot row built from two
  index counters); and a sum in which every term carries a factor that is 1 at one index and 0 at all others is the term
  at that index. The last needs no finiteness: `x * 0 = 0` and `x * 1 = x` hold at ±∞ as well.
-/
import Idealize.ShloMosaic.PureOps.Ideal
import Idealize.ShloMosaic.Lib.Affine

noncomputable section

namespace Cert.Lib.OneHot

open Idealize.ShloMosaic

/-- A one-bit word converted (unsigned) to a float, on the extended reals: 1 if the bit is set, 0 if not. -/
theorem bit_toEReal (φ : FTy) (b : BitVec 1) :
    (FloatOps.uitofp (F := Ideal) φ b : EReal) = if b = 1#1 then (1 : EReal) else 0 := by
  show ((b.toNat : ℝ) : EReal) = _
  obtain rfl | rfl : b = 0#1 ∨ b = 1#1 := by revert b; decide
  · rw [if_neg (by decide)]; norm_num
  · rw [if_pos rfl]; norm_num

/-- Two numbers below 2³², written as 32-bit words, are the same word only if they are the same number. -/
theorem ofNat32_inj {a b : ℕ} (ha : a < 2 ^ 32) (hb : b < 2 ^ 32) :
    BitVec.ofNat 32 a = BitVec.ofNat 32 b ↔ a = b := by
  constructor
  · intro h
    have e := congrArg BitVec.toNat h
    rwa [BitVec.toNat_ofNat, BitVec.toNat_ofNat, Nat.mod_eq_of_lt ha, Nat.mod_eq_of_lt hb] at e
  · rintro rfl; rfl

/-- Two counters below 2³² compared for equality as 32-bit words, the answer converted to a float: 1 when the counters
    agree, 0 when they do not. -/
theorem eq_words_toEReal (φ : FTy) {a b : ℕ} (ha : a < 2 ^ 32) (hb : b < 2 ^ 32) :
    (FloatOps.uitofp (F := Ideal) φ (IntOp.cmpi .eq (BitVec.ofNat 32 a) (BitVec.ofNat 32 b)) : EReal)
      = if a = b then (1 : EReal) else 0 := by
  rw [bit_toEReal]
  exact if_congr (IntOp.cmpi_eq.trans (ofNat32_inj ha hb)) rfl rfl

/-- A sum over `k` of `x k` times a factor that is 1 at `k₀` and 0 elsewhere is `x k₀`: every other term is
    `x k * 0 = 0`, whatever extended real `x k` is. -/
theorem sum_mul_single {ι : Type} [Fintype ι] [DecidableEq ι] (x : ι → EReal) (k₀ : ι) :
    ∑ k : ι, x k * (if k = k₀ then (1 : EReal) else 0) = x k₀ := by
  rw [Finset.sum_eq_single k₀]
  · rw [if_pos rfl, mul_one]
  · intro k _ hk
    rw [if_neg hk, mul_zero]
  · intro h
    exact absurd (Finset.mem_univ _) h

/-- The same with the one-hot factor on the left. -/
theorem sum_single_mul {ι : Type} [Fintype ι] [DecidableEq ι] (x : ι → EReal) (k₀ : ι) :
    ∑ k : ι, (if k = k₀ then (1 : EReal) else 0) * x k = x k₀ := by
  rw [← sum_mul_single x k₀]
  exact Finset.sum_congr rfl fun k _ => mul_comm _ _

end Cert.Lib.OneHot

end
-- ==== Proof.ShiftSpec.lean ====
/-
  Every row of an 8192 × 4096 array moved one lane to the right, around the end, written as ONE function of the
  array: entry `(r, j)` of the shifted array is the array's entry `(r, j − 1 mod 4096)`. Both programs are compared
  with this function. Also the one fact about lanes both comparisons use: `j` is the lane after `k`, around the end,
  exactly when `k` is the lane before `j`.
-/
import Idealize.ShloMosaic.PureOps.Ideal
import Idealize.ShloMosaic.Lib.ValueIdx

noncomputable section

namespace Cert.Shift

open Idealize.ShloMosaic Idealize.ShloMosaic.ValueIdx

/-- The lane an entry comes from: the one before `j`, and the last lane for `j = 0`. -/
def prevLane (j : Fin 4096) : Fin 4096 := ⟨(j.val + 4095) % 4096, Nat.mod_lt _ (by norm_num)⟩

theorem prevLane_val (j : Fin 4096) : (prevLane j).val = (j.val + 4095) % 4096 := rfl

/-- `j` is the lane after `k`, around the end, exactly when `k` is the lane before `j`. -/
theorem succ_mod_eq_iff (k j : Fin 4096) : (k.val + 1) % 4096 = j.val ↔ k = prevLane j := by
  rw [Fin.ext_iff, prevLane_val]
  have hk := k.isLt
  have hj := j.isLt
  omega

/-- Each row moved one lane to the right, around the end: entry `(r, j)` is the array's entry `(r, j − 1 mod 4096)`. -/
def shifted {α : Type} (x : (⟨2, ![8192, 4096]⟩ : Shape).Idx → α) : (⟨2, ![8192, 4096]⟩ : Shape).Idx → α :=
  fun i => x (ix2 (i 0) (prevLane (i 1)))

theorem shifted_apply {α : Type} (x : (⟨2, ![8192, 4096]⟩ : Shape).Idx → α) (r : Fin 8192) (j : Fin 4096) :
    shifted x (ix2 r j) = x (ix2 r (prevLane j)) := rfl

end Cert.Shift

end
-- ==== Proof.PermMatrix.lean ====
/-
  The reference's matrix, entry by entry. It is built as the identity matrix (a comparison of the row number with the
  column number, converted to a float) whose rows are then moved up by one, around the end: rows 1 … 4095 first, row 0
  last. So entry `(k, j)` is the identity's entry `(k + 1 mod 4096, j)`: 1 when `j` is the lane after `k`, 0 otherwise.
-/
import proofs.«157221_j21844203667967_2_alg».proof.Proof.Gen.ReferenceIdeal.Read
import proofs.«157221_j21844203667967_2_alg».proof.Proof.ShiftSpec
import proofs.«157221_j21844203667967_2_alg».proof.Proof.LibOneHot
import Idealize.ShloMosaic.Lib.Affine
import Idealize.ShloMosaic.Lib.Pipeline.Value

noncomputable section

namespace Cert.ReferenceIdeal.Perm

open Cert.ReferenceIdeal Cert.ReferenceIdeal.Gen Cert.ReferenceIdeal.Read
open Idealize.ShloMosaic Idealize.ShloMosaic.ValueIdx Cert.Shift

/-- THE IDENTITY MATRIX: the row number (plus the constant 0) compared with the column number, as a float. -/
theorem eye_apply (k j : Fin 4096) :
    val_main_v5 (F := Ideal) (ix2 k j) = if k = j then (1 : EReal) else 0 := by
  rw [val_main_v5_apply, val_main_v4_apply, val_main_v3_apply, val_main_v0_apply, val_main_v1_apply,
    val_main_v2_apply, val_main_c_apply]
  show (FloatOps.uitofp (F := Ideal) .f32
    (IntOp.cmpi .eq (BitVec.ofNat 32 k.val + 0#32) (BitVec.ofNat 32 j.val)) : EReal) = _
  rw [BitVec.add_zero, Cert.Lib.OneHot.eq_words_toEReal .f32 (lt_trans k.isLt (by norm_num))
    (lt_trans j.isLt (by norm_num))]
  exact if_congr Fin.ext_iff.symm rfl rfl

/-- THE ROLLED MATRIX: rows 1 … 4095 of the identity followed by its row 0. Entry `(k, j)` is 1 exactly when `j` is the
    lane after `k`, around the end. -/
theorem perm_apply (k j : Fin 4096) :
    val_main_v6 (F := Ideal) (ix2 k j) = if (k.val + 1) % 4096 = j.val then (1 : EReal) else 0 := by
  unfold val_main_v6
  by_cases hk : k.val < 4095
  · -- a row above the last: it is row `k + 1` of the identity
    rw [concatenate_pair_apply_left (t := S4096x4096) (s₁ := S4095x4096) (s₂ := S1x4096) (0 : Fin 2) _ _
      concatenates_S4095x4096_S1x4096_S4096x4096_d0 (ix2 k j) rfl
      (ix2 (⟨k.val, hk⟩ : Fin 4095) j) (fun b => by match b with | ⟨0, _⟩ => rfl | ⟨1, _⟩ => rfl)]
    rw [val_main_call0_v0_apply]
    have e : idx_main_call0_v0 (ix2 (⟨k.val, hk⟩ : Fin 4095) j) = ix2 (⟨k.val + 1, by omega⟩ : Fin 4096) j :=
      funext fun a => Fin.ext (by
        match a with
        | ⟨0, _⟩ => show 1 + k.val = k.val + 1; omega
        | ⟨1, _⟩ => rfl)
    rw [e, eye_apply]
    refine if_congr ?_ rfl rfl
    rw [Fin.ext_iff, Nat.mod_eq_of_lt (by omega)]
  · -- the last row: it is row 0 of the identity
    have hk' : k.val = 4095 := by have := k.isLt; omega
    rw [concatenate_pair_apply_right (t := S4096x4096) (s₁ := S4095x4096) (s₂ := S1x4096) (0 : Fin 2) _ _
      concatenates_S4095x4096_S1x4096_S4096x4096_d0 (ix2 k j) rfl rfl
      (ix2 (0 : Fin 1) j) (fun b hb => by match b with | ⟨0, _⟩ => exact absurd rfl hb | ⟨1, _⟩ => rfl)
      (by show 0 + 4095 = k.val; omega)]
    rw [val_main_call0_v1_apply]
    have e : idx_main_call0_v1 (ix2 (0 : Fin 1) j) = ix2 (0 : Fin 4096) j :=
      funext fun a => Fin.ext (by
        match a with
        | ⟨0, _⟩ => rfl
        | ⟨1, _⟩ => rfl)
    rw [e, eye_apply]
    refine if_congr ?_ rfl rfl
    rw [Fin.ext_iff, hk']
    show 0 = j.val ↔ (4095 + 1) % 4096 = j.val
    norm_num

end Cert.ReferenceIdeal.Perm

end
-- ==== Proof.RefValue.lean ====
/-
  The reference's result is the shifted array. Its last operation multiplies the argument by the rolled identity matrix:
  entry `(r, j)` of the product is the sum over `k` of `x (r, k)` times the matrix entry `(k, j)`, and that entry is 1 when
  `k` is the lane before `j` and 0 otherwise. All terms but one vanish, and what is left is `x (r, j − 1 mod 4096)`.
-/
import proofs.«157221_j21844203667967_2_alg».proof.Proof.Gen.ReferenceIdeal.Read
import proofs.«157221_j21844203667967_2_alg».proof.Proof.ShiftSpec
import proofs.«157221_j21844203667967_2_alg».proof.Proof.PermMatrix
import proofs.«157221_j21844203667967_2_alg».proof.Proof.LibOneHot

noncomputable section

namespace Cert.ReferenceIdeal.RefValue

open Cert.ReferenceIdeal Cert.ReferenceIdeal.Gen Cert.ReferenceIdeal.Read Cert.ReferenceIdeal.Perm
open Idealize.ShloMosaic Idealize.ShloMosaic.ValueIdx Cert.Shift

/-- THE REFERENCE IS THE SHIFT: the product of the argument with the rolled identity matrix, on the extended reals, is
    the argument with every row moved one lane to the right, around the end. -/
theorem ref_eq (x : (⟨S8192x4096, .f32⟩ : BufTy).Contents (Elt Ideal)) :
    val_main_v7 (F := Ideal) x = shifted x := by
  funext i
  obtain ⟨r, j, rfl⟩ : ∃ (r : Fin 8192) (j : Fin 4096), i = ix2 r j := ⟨i 0, i 1, eq_ix2 i⟩
  rw [val_main_v7_apply, shifted_apply]
  have el : ∀ k : Fin 4096, lidx_main_v7 (ix2 r j) k = ix2 r k := fun k =>
    funext fun a => Fin.ext (by match a with | ⟨0, _⟩ => rfl | ⟨1, _⟩ => rfl)
  have er : ∀ k : Fin 4096, ridx_main_v7 (ix2 r j) k = ix2 k j := fun k =>
    funext fun a => Fin.ext (by match a with | ⟨0, _⟩ => rfl | ⟨1, _⟩ => rfl)
  simp only [el, er, perm_apply, succ_mod_eq_iff]
  exact Cert.Lib.OneHot.sum_mul_single (fun k => x (ix2 r k)) (prevLane j)

end Cert.ReferenceIdeal.RefValue

end
-- ==== Proof.KernelValue.lean ====
/-
  The kernel's result array is the shifted argument. The grid has 16 points; point `t` stages rows `512 t … 512 t + 511` of
  the argument, all 4096 lanes of them, rotates that block by one lane to the right, around the end, and writes the result
  back to the same rows of the result array. A block holds whole rows, so the rotation inside the block is the rotation of
  the array's rows: what point `t` writes is block `t` of the shifted array. The 16 blocks cover every row, so the result
  array ends as the shifted array.
-/
import proofs.«157221_j21844203667967_2_alg».proof.Proof.Gen.KernelIdeal.Value
import proofs.«157221_j21844203667967_2_alg».proof.Proof.ShiftSpec
import Idealize.ShloMosaic.Lib.KernelVsHost
import Idealize.ShloMosaic.Lib.Pipeline.Value
import Idealize.ShloMosaic.Lib.ValueIdx

set_option maxRecDepth 16384

noncomputable section

namespace Cert.KernelIdeal.ShiftValue

open Cert.KernelIdeal Cert.KernelIdeal.Gen Idealize.ShloMosaic Idealize.ShloMosaic.TcCoe Idealize.SL.Sem
open Idealize.ShloMosaic.Pipeline (Dat)
open Idealize.ShloMosaic.ValueIdx Cert.Shift

variable {F : FTy → Type} [FloatOps F]
variable (m : (ℓ : Loc nD τ sig) → Buf (Elt F) ℓ) (ρ : Dev nD → PrngReg)

theorem corner_zero : (![0, 0] : Fin 2 → Nat) = fun _ => 0 := funext fun a => by fin_cases a <;> rfl

/-- THE BODY AT AN INDEX: the block rotated by one along its lanes. Entry `(p, q)` of the result is the block's entry
    `(p, q − 1 mod 4096)`; the row is kept. -/
theorem pay_apply (x0 : Vec F S512x4096 .f32) (y : S512x4096.Idx) :
    k0_pay1 x0 y = x0 (ix2 (y 0) (prevLane (y 1))) := by
  unfold k0_pay1
  refine dynamicRotate_apply (s := S512x4096) (1 : Fin 2) 1#32 x0 rotates_S512x4096_d1 y (ix2 (y 0) (prevLane (y 1)))
    (fun b => ?_)
  match b with
  | ⟨0, h0⟩ => exact (if_neg fun h => Nat.zero_ne_one (congrArg Fin.val h)).symm
  | ⟨1, h1⟩ =>
    refine Eq.trans ?_ (if_pos (rfl : (⟨1, h1⟩ : Fin S512x4096.rank) = 1)).symm
    show ((y 1).val + 4095) % 4096 = ((y 1).val + 4096 - (1#32 : BitVec 32).toNat % 4096) % 4096
    have e : (1#32 : BitVec 32).toNat = 1 := rfl
    rw [e]
    omega

/-- The printed index maps, decided over the 16 grid points: the argument's block and the result's block at a point are
    the same rows, both span all lanes, and the row-block number is at most 15. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 15 :=
  (by decide +kernel : ∀ t : Fin grid0.N, _)

/-- Every one of the 16 row blocks is some point's. -/
theorem idx_onto : ∀ q0 : Fin 16, ∃ t : Fin cfg0.N, win0_1.index t = ![q0.val, 0] :=
  (by decide +kernel : ∀ q0 : Fin 16, ∃ t : Fin grid0.N, win0_1.index t = ![q0.val, 0])

/-- WHAT POINT `t` WRITES BACK is block `t` of the shifted argument: the block holds whole rows, so the lane before `q` inside
    the block is the lane before `q` in the array. -/
theorem flushed_eq (c : Dev nD) (t : Fin cfg0.N) :
    (dats m 0 c).flushed 1 t = ((cfg0.win 1).blk t).view.read (Elt F) (shifted (V m c main_arg0)) := by
  rw [Value.flushed1]
  unfold out0_1
  rw [View.canon_unit_zero corner_zero]
  simp only [View.ld_unit_zero (S := S512x4096) corner_zero]
  obtain ⟨e0, e1, e2, e3⟩ := idx_facts t
  funext y
  show k0_pay1 (iblk m c 0 t) y = shifted (V m c main_arg0) (((cfg0.win 1).blk t).view.emb y)
  refine (pay_apply (iblk m c 0 t) y).trans ?_
  show V m c main_arg0 (((cfg0.win 0).blk t).view.emb (ix2 (y 0) (prevLane (y 1))))
    = V m c main_arg0 (ix2 ((((cfg0.win 1).blk t).view.emb y) 0) (prevLane ((((cfg0.win 1).blk t).view.emb y) 1)))
  refine congrArg _ (funext fun a => Fin.ext ?_)
  match a with
  | ⟨0, _⟩ =>
    show win0_0.index t (0 : Fin 2) * 512 + 1 * (y 0).val = win0_1.index t (0 : Fin 2) * 512 + 1 * (y 0).val
    omega
  | ⟨1, _⟩ =>
    show win0_0.index t (1 : Fin 2) * 4096 + 1 * (((y 1).val + 4095) % 4096)
      = ((win0_1.index t (1 : Fin 2) * 4096 + 1 * (y 1).val) + 4095) % 4096
    have hy : (y 1).val < 4096 := (y 1).isLt
    omega

/-- An index of the result array is in point `t`'s block iff each coordinate is in the block's range on its axis. -/
theorem mem_blk (t : Fin cfg0.N) (i : S8192x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0).slice (win0_1.rect t)).set ↔ _
  rw [View.set_slice_whole, Rect.mem_set_unit]
  exact Iff.rfl

/-- THE BLOCKS COVER THE ARRAY: row `r` is in the block of the point whose row-block number is `r / 512`. -/
theorem cover (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 4096 ≤ (i 1).val ∧ (i 1).val < win0_1.index t (1 : Fin 2) * 4096 + 4096
    omega

/-- THE RESULT ARRAY after the run is the shifted argument. -/
theorem final (c : Dev nD) :
    (dats m 0 c).arrAt 1 cfg0.N = shifted (m ((c : Thread nD τ).loc main_arg0)) :=
  (dats m 0 c).arrAt_eq_of_cover 1 (shifted (V m c main_arg0)) (fun t _ => flushed_eq m c t) cover

/-- The kernel's run re-posted: the result array is the shifted argument, the argument unchanged. -/
theorem run : θ_run defs (onTc (τ := τ) (main (F := F))) ⟨m, fun _ => 0, ρ⟩ fun r => ∀ c : Dev nD,
      r.2.mem ((c : Thread nD τ).loc main_v0) = shifted (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ShiftValue

end
-- ==== Proof.lean ====
/-
  A circular shift of the lanes, stated two ways, is one function on the extended reals.

  The kernel takes an 8192 × 4096 array and, 512 rows at a time, rotates every row one lane to the right, around the end:
  entry `(r, j)` of its result is the argument's entry `(r, j − 1 mod 4096)`. The reference multiplies the argument by a
  4096 × 4096 matrix, the identity with its rows moved up by one around the end, whose entry `(k, j)` is 1 when `j` is the
  lane after `k` and 0 otherwise; entry `(r, j)` of the product is the sum over `k` of `x (r, k)` times that entry. Every
  term of the sum but the one at `k = j − 1 mod 4096` is `x (r, k) * 0 = 0`, and the one left is `x (r, k) * 1`. Both
  identities hold for every extended real, ±∞ included, so the two results agree on every input and the finiteness of the
  input is not used.

  `Proof/ShiftSpec.lean` states the shifted array as one function; `Proof/LibOneHot.lean` has the general facts about
  one-hot factors (a comparison bit as a float is 1 or 0, and a sum against such a factor keeps one term);
  `Proof/PermMatrix.lean` reads the reference's matrix entry by entry; `Proof/RefValue.lean` concludes that the reference's
  result is the shifted array; `Proof/KernelValue.lean` shows that each grid point writes its block of the shifted array
  and that the blocks cover the result. The three programs' runs (termination, no fault, arguments unchanged) are the
  generated ones, and the kernel's idealization rewrote no operation, so there is nothing to preserve.
-/
import proofs.«157221_j21844203667967_2_alg».proof.Defs
import proofs.«157221_j21844203667967_2_alg».proof.Proof.Gen.Kernel
import proofs.«157221_j21844203667967_2_alg».proof.Proof.Gen.Kernel.Skeleton
import proofs.«157221_j21844203667967_2_alg».proof.Proof.Gen.Kernel.Launch
import proofs.«157221_j21844203667967_2_alg».proof.Proof.Gen.Kernel.Points
import proofs.«157221_j21844203667967_2_alg».proof.Proof.Gen.Kernel.Frame
import proofs.«157221_j21844203667967_2_alg».proof.Proof.Gen.KernelIdeal
import proofs.«157221_j21844203667967_2_alg».proof.Proof.Gen.KernelIdeal.Skeleton
import proofs.«157221_j21844203667967_2_alg».proof.Proof.Gen.KernelIdeal.Launch
import proofs.«157221_j21844203667967_2_alg».proof.Proof.Gen.KernelIdeal.Points
import proofs.«157221_j21844203667967_2_alg».proof.Proof.Gen.KernelIdeal.Frame
import proofs.«157221_j21844203667967_2_alg».proof.Proof.Gen.KernelIdeal.Value
import proofs.«157221_j21844203667967_2_alg».proof.Proof.Gen.ReferenceIdeal
import proofs.«157221_j21844203667967_2_alg».proof.Proof.Gen.ReferenceIdeal.Run
import proofs.«157221_j21844203667967_2_alg».proof.Proof.Gen.ReferenceIdeal.Read
import proofs.«157221_j21844203667967_2_alg».proof.Proof.Gen.Pre_finite_inputs
import proofs.«157221_j21844203667967_2_alg».proof.Proof.LibOneHot
import proofs.«157221_j21844203667967_2_alg».proof.Proof.ShiftSpec
import proofs.«157221_j21844203667967_2_alg».proof.Proof.PermMatrix
import proofs.«157221_j21844203667967_2_alg».proof.Proof.RefValue
import proofs.«157221_j21844203667967_2_alg».proof.Proof.KernelValue
import Idealize.ShloMosaic.Adequacy
import Idealize.ShloMosaic.Init

noncomputable section

namespace Cert.Proof

open Idealize.ShloMosaic Idealize.SL.Sem

/-- The kernel as printed runs, and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its run is the run of its host operations, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On the extended reals, from memories that agree on the argument, the kernel's result array and the reference's both
    end as the argument with every row moved one lane to the right, around the end. -/
theorem algebraic : Cert.algebraic_KernelIdeal_ReferenceIdeal := by
  intro m ρ m' ρ' _ hagree
  refine ⟨fun c => Cert.Shift.shifted (m ((c.tc : Thread Cert.KernelIdeal.nD Cert.KernelIdeal.τ).loc Cert.KernelIdeal.main_arg0)),
    Cert.KernelIdeal.ShiftValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
